-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x8192 : Shape := ⟨2, ![2048, 8192]⟩
abbrev S1679360 : Shape := ⟨1, ![1679360]⟩
abbrev S4096 : Shape := ⟨1, ![4096]⟩
abbrev S_ : Shape := ⟨0, ![]⟩

class Facts : Prop where
  bcast_S_S2048x8192 : S_.BroadcastsInDim S2048x8192 (![] : Fin 0 → Fin S2048x8192.rank)
  reducesTo_S2048x8192_S_d0_1 : S2048x8192.ReducesTo [0, 1] S_
  h_S_ : 0 < S_.numel
  bcast_S_S1679360 : S_.BroadcastsInDim S1679360 (![] : Fin 0 → Fin S1679360.rank)
  reducesTo_S1679360_S_d0 : S1679360.ReducesTo [0] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S2048x8192 .f32) (main_arg1 : FVec F S1679360 .f32) (main_arg2 : FVec F S4096 .f32) (main_arg3 : IVec S1679360 32) (main_arg4 : IVec S1679360 32) : IVec S_ 1 :=
  let main_v0 : FVec F S2048x8192 .f32 := Host.absf main_arg0
  let main_cst : FVec F S_ .f32 := constant S_ .f32 0x7F800000#32
  let main_v1 : FVec F S2048x8192 .f32 := broadcastInDim S2048x8192 ![] bcast_S_S2048x8192 main_cst
  let main_v2 : IVec S2048x8192 1 := cmpf .olt main_v0 main_v1
  let main_c : IVec S_ 1 := constantI S_ 1 1#1
  let main_v3 : IVec S_ 1 := (fun x v => Host.reduce IntOp.andi x v reducesTo_S2048x8192_S_d0_1 h_S_) main_v2 main_c
  let main_v4 : FVec F S1679360 .f32 := Host.absf main_arg1
  let main_cst_0 : FVec F S_ .f32 := constant S_ .f32 0x7F800000#32
  let main_v5 : FVec F S1679360 .f32 := broadcastInDim S1679360 ![] bcast_S_S1679360 main_cst_0
  let main_v6 : IVec S1679360 1 := cmpf .olt main_v4 main_v5
  let main_c_1 : IVec S_ 1 := constantI S_ 1 1#1
  let main_v7 : IVec S_ 1 := (fun x v => Host.reduce IntOp.andi x v reducesTo_S1679360_S_d0 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S2048x8192 : Shape := ⟨2, ![2048, 8192]⟩
abbrev S1679360 : Shape := ⟨1, ![1679360]⟩
abbrev S4096 : Shape := ⟨1, ![4096]⟩
abbrev S_ : Shape := ⟨0, ![]⟩
abbrev S8192x4096 : Shape := ⟨2, ![8192, 4096]⟩
abbrev S1679360x1 : Shape := ⟨2, ![1679360, 1]⟩
abbrev S1679360x2 : Shape := ⟨2, ![1679360, 2]⟩
abbrev S2048x4096 : Shape := ⟨2, ![2048, 4096]⟩
abbrev S512x2048 : Shape := ⟨2, ![512, 2048]⟩
abbrev S2048x1024 : Shape := ⟨2, ![2048, 1024]⟩
abbrev S1024 : Shape := ⟨1, ![1024]⟩
abbrev S512x1024 : Shape := ⟨2, ![512, 1024]⟩
abbrev S1x1024 : Shape := ⟨2, ![1, 1024]⟩

abbrev nBuf : Space → Nat
  | .hbm => 28
  | .vmem => 9
  | .smem => 0
  | _ => 0

abbrev bufTy : (tb : Table) → Fin (tcTables nBuf tb) → BufTy
  | .hbm, ⟨0, _⟩ => ⟨S2048x8192, .f32⟩
  | .hbm, ⟨1, _⟩ => ⟨S1679360, .f32⟩
  | .hbm, ⟨2, _⟩ => ⟨S4096, .f32⟩
  | .hbm, ⟨3, _⟩ => ⟨S1679360, .i32⟩
  | .hbm, ⟨4, _⟩ => ⟨S1679360, .i32⟩
  | .hbm, ⟨5, _⟩ => ⟨S_, .f32⟩
  | .hbm, ⟨6, _⟩ => ⟨S8192x4096, .f32⟩
  | .hbm, ⟨7, _⟩ => ⟨S_, .i32⟩
  | .hbm, ⟨8, _⟩ => ⟨S1679360, .i32⟩
  | .hbm, ⟨9, _⟩ => ⟨S1679360, .i1⟩
  | .hbm, ⟨10, _⟩ => ⟨S_, .i32⟩
  | .hbm, ⟨11, _⟩ => ⟨S1679360, .i32⟩
  | .hbm, ⟨12, _⟩ => ⟨S1679360, .i32⟩
  | .hbm, ⟨13, _⟩ => ⟨S1679360, .i32⟩
  | .hbm, ⟨14, _⟩ => ⟨S_, .i32⟩
  | .hbm, ⟨15, _⟩ => ⟨S1679360, .i32⟩
  | .hbm, ⟨16, _⟩ => ⟨S1679360, .i1⟩
  | .hbm, ⟨17, _⟩ => ⟨S_, .i32⟩
  | .hbm, ⟨18, _⟩ => ⟨S1679360, .i32⟩
  | .hbm, ⟨19, _⟩ => ⟨S1679360, .i32⟩
  | .hbm, ⟨20, _⟩ => ⟨S1679360, .i32⟩
  | .hbm, ⟨21, _⟩ => ⟨S1679360x1, .i32⟩
  | .hbm, ⟨22, _⟩ => ⟨S1679360x1, .i32⟩
  | .hbm, ⟨23, _⟩ => ⟨S1679360x2, .i32⟩
  | .hbm, ⟨24, _⟩ => ⟨S8192x4096, .f32⟩
  | .hbm, ⟨25, _⟩ => ⟨S2048x8192, .bf16⟩
  | .hbm, ⟨26, _⟩ => ⟨S8192x4096, .bf16⟩
  | .hbm, ⟨27, _⟩ => ⟨S2048x4096, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024, .f32⟩
  | .local _ .vmem, ⟨5, _⟩ => ⟨S1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | _, _ => ⟨S2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c_1 : Ref sig .tc := ⟨.hbm, 14, rfl⟩
abbrev main_v6 : Ref sig .tc := ⟨.hbm, 15, rfl⟩
abbrev main_v7 : Ref sig .tc := ⟨.hbm, 16, rfl⟩
abbrev main_c_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bcast_S_S8192x4096 : S_.BroadcastsInDim S8192x4096 (![] : Fin 0 → Fin S8192x4096.rank)
  bcast_S_S1679360 : S_.BroadcastsInDim S1679360 (![] : Fin 0 → Fin S1679360.rank)
  bcast_S1679360_S1679360x1_0 : S1679360.BroadcastsInDim S1679360x1 (![0] : Fin 1 → Fin S1679360x1.rank)
  concatenates_S1679360x1_S1679360x1_S1679360x2_d1 : Shape.Concatenates [S1679360x1, S1679360x1] S1679360x2 1
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S512x1024 : S1x1024.Broadcasts S512x1024
  scatter_S8192x4096_S1679360x2_S1679360_n_01_01_1_wf : ScatterDims.WF S8192x4096 S1679360x2 S1679360 [] [0, 1] [0, 1] 1
  dot_S512x2048_S2048x1024_S512x1024_1_0_0_1_n_n_wf : DotDims.WF S512x2048 S2048x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S2048x8192.size a
  hwx0_0 : ∀ i : grid0.Coords, EltTy.bits .bf16 = 32 ∨ (Rect.block (s := S2048x8192) S512x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S8192x4096.size a
  hwx0_1 : ∀ i : grid0.Coords, EltTy.bits .bf16 = 32 ∨ (Rect.block (s := S8192x4096) S2048x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S4096.size a
  hwx0_2 : ∀ i : grid0.Coords, EltTy.bits .f32 = 32 ∨ (Rect.block (s := S4096) S1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S2048x4096.size a
  hwx0_3 : ∀ i : grid0.Coords, EltTy.bits .f32 = 32 ∨ (Rect.block (s := S2048x4096) S512x1024.size (cc0_transform_3 i) (hinb0_3 i)).WholeWords (EltTy.packing .f32)

variable [Facts₀]

def scatter_S8192x4096_S1679360x2_S1679360_n_01_01_1 : ScatterDims S8192x4096 S1679360x2 S1679360 where
  updateWindowDims := []
  insertedWindowDims := [0, 1]
  scatterDimsToOperandDims := [0, 1]
  indexVectorDim := 1
  wf := scatter_S8192x4096_S1679360x2_S1679360_n_01_01_1_wf
def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf

abbrev win0_0 : Pipeline.Window sig grid0 :=
  Pipeline.Window.ofSpec (Memref.whole main_v15) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S2048x8192 : Shape := ⟨2, ![2048, 8192]⟩
abbrev S1679360 : Shape := ⟨1, ![1679360]⟩
abbrev S4096 : Shape := ⟨1, ![4096]⟩
abbrev S_ : Shape := ⟨0, ![]⟩
abbrev S8192x4096 : Shape := ⟨2, ![8192, 4096]⟩
abbrev S1679360x1 : Shape := ⟨2, ![1679360, 1]⟩
abbrev S1679360x2 : Shape := ⟨2, ![1679360, 2]⟩
abbrev S2048x4096 : Shape := ⟨2, ![2048, 4096]⟩
abbrev S1x4096 : Shape := ⟨2, ![1, 4096]⟩

abbrev nBuf : Space → Nat
  | .hbm => 32
  | .vmem => 0
  | .smem => 0
  | _ => 0

abbrev bufTy : (tb : Table) → Fin (tcTables nBuf tb) → BufTy
  | .hbm, ⟨0, _⟩ => ⟨S2048x8192, .f32⟩
  | .hbm, ⟨1, _⟩ => ⟨S1679360, .f32⟩
  | .hbm, ⟨2, _⟩ => ⟨S4096, .f32⟩
  | .hbm, ⟨3, _⟩ => ⟨S1679360, .i32⟩
  | .hbm, ⟨4, _⟩ => ⟨S1679360, .i32⟩
  | .hbm, ⟨5, _⟩ => ⟨S_, .f32⟩
  | .hbm, ⟨6, _⟩ => ⟨S8192x4096, .f32⟩
  | .hbm, ⟨7, _⟩ => ⟨S_, .i32⟩
  | .hbm, ⟨8, _⟩ => ⟨S1679360, .i32⟩
  | .hbm, ⟨9, _⟩ => ⟨S1679360, .i1⟩
  | .hbm, ⟨10, _⟩ => ⟨S_, .i32⟩
  | .hbm, ⟨11, _⟩ => ⟨S1679360, .i32⟩
  | .hbm, ⟨12, _⟩ => ⟨S1679360, .i32⟩
  | .hbm, ⟨13, _⟩ => ⟨S1679360, .i32⟩
  | .hbm, ⟨14, _⟩ => ⟨S_, .i32⟩
  | .hbm, ⟨15, _⟩ => ⟨S1679360, .i32⟩
  | .hbm, ⟨16, _⟩ => ⟨S1679360, .i1⟩
  | .hbm, ⟨17, _⟩ => ⟨S_, .i32⟩
  | .hbm, ⟨18, _⟩ => ⟨S1679360, .i32⟩
  | .hbm, ⟨19, _⟩ => ⟨S1679360, .i32⟩
  | .hbm, ⟨20, _⟩ => ⟨S1679360, .i32⟩
  | .hbm, ⟨21, _⟩ => ⟨S1679360x1, .i32⟩
  | .hbm, ⟨22, _⟩ => ⟨S1679360x1, .i32⟩
  | .hbm, ⟨23, _⟩ => ⟨S1679360x2, .i32⟩
  | .hbm, ⟨24, _⟩ => ⟨S8192x4096, .f32⟩
  | .hbm, ⟨25, _⟩ => ⟨S2048x4096, .f32⟩
  | .hbm, ⟨26, _⟩ => ⟨S1x4096, .f32⟩
  | .hbm, ⟨27, _⟩ => ⟨S2048x4096, .f32⟩
  | .hbm, ⟨28, _⟩ => ⟨S2048x4096, .f32⟩
  | .hbm, ⟨29, _⟩ => ⟨S_, .f32⟩
  | .hbm, ⟨30, _⟩ => ⟨S2048x4096, .f32⟩
  | .hbm, ⟨31, _⟩ => ⟨S2048x4096, .f32⟩
  | _, _ => ⟨S2048x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c_1 : Ref sig .tc := ⟨.hbm, 14, rfl⟩
abbrev main_v6 : Ref sig .tc := ⟨.hbm, 15, rfl⟩
abbrev main_v7 : Ref sig .tc := ⟨.hbm, 16, rfl⟩
abbrev main_c_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_call0_cst : Ref sig .tc := ⟨.hbm, 29, rfl⟩
abbrev main_call0_v0 : Ref sig .tc := ⟨.hbm, 30, rfl⟩
abbrev main_v19 : Ref sig .tc := ⟨.hbm, 31, rfl⟩

abbrev nD : Nat := 1
abbrev τ : Topo := Topo.v7x

variable {F : FTy → Type} [FloatOps F]

class Facts₀ : Prop where
  bcast_S_S8192x4096 : S_.BroadcastsInDim S8192x4096 (![] : Fin 0 → Fin S8192x4096.rank)
  bcast_S_S1679360 : S_.BroadcastsInDim S1679360 (![] : Fin 0 → Fin S1679360.rank)
  bcast_S1679360_S1679360x1_0 : S1679360.BroadcastsInDim S1679360x1 (![0] : Fin 1 → Fin S1679360x1.rank)
  concatenates_S1679360x1_S1679360x1_S1679360x2_d1 : Shape.Concatenates [S1679360x1, S1679360x1] S1679360x2 1
  bcast_S4096_S1x4096_1 : S4096.BroadcastsInDim S1x4096 (![1] : Fin 1 → Fin S1x4096.rank)
  bcast_S1x4096_S2048x4096_0_1 : S1x4096.BroadcastsInDim S2048x4096 (![0, 1] : Fin 2 → Fin S2048x4096.rank)
  bcast_S_S2048x4096 : S_.BroadcastsInDim S2048x4096 (![] : Fin 0 → Fin S2048x4096.rank)
  scatter_S8192x4096_S1679360x2_S1679360_n_01_01_1_wf : ScatterDims.WF S8192x4096 S1679360x2 S1679360 [] [0, 1] [0, 1] 1
  dot_S2048x8192_S8192x4096_S2048x4096_1_0_0_1_n_n_wf : DotDims.WF S2048x8192 S8192x4096 S2048x4096 [1] [0] [0] [1] [] []

variable [Facts₀]

def scatter_S8192x4096_S1679360x2_S1679360_n_01_01_1 : ScatterDims S8192x4096 S1679360x2 S1679360 where
  updateWindowDims := []
  insertedWindowDims := [0, 1]
  scatterDimsToOperandDims := [0, 1]
  indexVectorDim := 1
  wf := scatter_S8192x4096_S1679360x2_S1679360_n_01_01_1_wf
def dot_S2048x8192_S8192x4096_S2048x4096_1_0_0_1_n_n : DotDims S2048x8192 S8192x4096 S2048x4096 where
  lhsContracting := [1]
  rhsContracting := [0]
  lhsNonContracting := [0]
  rhsNonContracting := [1]
  lhsBatch := []
  rhsBatch := []
  wf := dot_S2048x8192_S8192x4096_S2048x4096_1_0_0_1_n_n_wf

class Facts : Prop extends Facts₀ where

variable [Facts]
-- ==== Proof.Pieces.lean ====
/-
  What one run of the kernel body leaves behind, case by case, as a value.

  The body keeps a running [512, 1024] block `acc` in a scratch buffer that survives from one grid point to the next.
  With `x` the point's [512, 2048] block of the left operand and `w` its [2048, 1024] block of the right operand:

    * at the first point of a run (K-coordinate 0) it stores the zero block, reads it back, and stores `0 + x·w`;
    * at a middle point it stores `acc + x·w`;
    * at the last point (K-coordinate 3) it stores `acc + x·w`, reads that back, and writes `max (that + bias, 0)`
      into the output block.

  Each statement below says that the contents a case leaves — defined as the case's stores read back — are the
  corresponding pure expression of the loaded blocks: `step acc x w` for the scratch, `finish bias acc'` for the
  output. A store through the whole buffer leaves its payload; a load of the whole buffer returns what it holds.
-/
import proofs.«159640_j36919538876542_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

/-- The zero offset of a rank-2 rectangle. -/
theorem hz2 : (![0, 0] : Fin 2 → Nat) = fun _ => 0 := funext fun a => by fin_cases a <;> rfl
/-- The zero offset of a rank-1 rectangle. -/
theorem hz1 : (![0] : Fin 1 → Nat) = fun _ => 0 := funext fun a => by fin_cases a; rfl

/-- The zero block a run starts from. -/
abbrev zeroBlock : FVec F S512x1024 .f32 := k0_pay1

/-- One accumulation step: `acc + x·w`, the product taken into a zero accumulator. -/
abbrev step (acc : Vec F S512x1024 .f32) (x : Vec F S512x2048 .bf16) (w : Vec F S2048x1024 .bf16) : FVec F S512x1024 .f32 :=
  k0_pay2 acc x w

/-- The epilogue: `max (acc + bias, 0)`, the bias row repeated down the 512 rows. -/
abbrev finish (bias : Vec F S1024 .f32) (acc : Vec F S512x1024 .f32) : FVec F S512x1024 .f32 :=
  k0_pay3 bias acc

/-- First point of a run: the scratch ends at `0 + x·w`; the zero block stored first is what the step reads back. -/
theorem scratch_first (c : Dev nD) (i : grid0.Coords) (a3 : Memref sig .tc .vmem S512x2048 .bf16) (h3 : a3.IsWhole)
    (a4 : Memref sig .tc .vmem S2048x1024 .bf16) (h4 : a4.IsWhole) (a5 : Memref sig .tc .vmem S1024 .f32) (h5 : a5.IsWhole)
    (a6 : Memref sig .tc .vmem S512x1024 .f32) (h6 : a6.IsWhole) (a7 : Memref sig .tc .vmem S512x1024 .f32) (h7 : a7.IsWhole)
    (hc0 : cond0_0 i) (hc1 : ¬cond0_1 i) (x0 : Vec F S512x2048 .bf16) (x1 : Vec F S2048x1024 .bf16) (x2 : Vec F S1024 .f32) :
    sout0_A_0 c i a3 h3 a4 h4 a5 h5 a6 h6 a7 h7 hc0 hc1 x0 x1 x2 = step (zeroBlock (F := F)) x0 x1 := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S512x1024) hz2, View.readCov_unit_zero (S := S512x1024) _ hz2]
  simp only [View.readAt_eq_ld, h3.read_unread, h4.read_unread, View.ld_unit_zero (S := S512x2048) hz2,
    View.ld_unit_zero (S := S2048x1024) hz2]

/-- Middle point: the scratch ends at `acc + x·w` over what the point before left. -/
theorem scratch_middle (c : Dev nD) (i : grid0.Coords) (a3 : Memref sig .tc .vmem S512x2048 .bf16) (h3 : a3.IsWhole)
    (a4 : Memref sig .tc .vmem S2048x1024 .bf16) (h4 : a4.IsWhole) (a5 : Memref sig .tc .vmem S1024 .f32) (h5 : a5.IsWhole)
    (a6 : Memref sig .tc .vmem S512x1024 .f32) (h6 : a6.IsWhole) (a7 : Memref sig .tc .vmem S512x1024 .f32) (h7 : a7.IsWhole)
    (hc0 : ¬cond0_0 i) (hc1 : ¬cond0_1 i) (x0 : Vec F S512x2048 .bf16) (x1 : Vec F S2048x1024 .bf16) (x2 : Vec F S1024 .f32)
    (xs0 : Vec F S512x1024 .f32) :
    sout0_B_0 c i a3 h3 a4 h4 a5 h5 a6 h6 a7 h7 hc0 hc1 x0 x1 x2 xs0 = step xs0 x0 x1 := by
  unfold sout0_B_0
  rw [View.read_writes_eq_canon _ _ _ (scover0_B_0 c i a3 h3 a4 h4 a5 h5 a6 h6 a7 h7 hc0 hc1 x0 x1 x2 xs0)]
  unfold kernelRun0_B
  dsimp only
  rw [View.canon_unit_zero (S := S512x1024) hz2]
  simp only [View.readAt_eq_ld, h3.read_unread, h4.read_unread, h7.read_unread, View.ld_unit_zero (S := S512x2048) hz2,
    View.ld_unit_zero (S := S2048x1024) hz2, View.ld_unit_zero (S := S512x1024) hz2]

/-- Last point, the scratch: it too ends at `acc + x·w`. -/
theorem scratch_last (c : Dev nD) (i : grid0.Coords) (a3 : Memref sig .tc .vmem S512x2048 .bf16) (h3 : a3.IsWhole)
    (a4 : Memref sig .tc .vmem S2048x1024 .bf16) (h4 : a4.IsWhole) (a5 : Memref sig .tc .vmem S1024 .f32) (h5 : a5.IsWhole)
    (a6 : Memref sig .tc .vmem S512x1024 .f32) (h6 : a6.IsWhole) (a7 : Memref sig .tc .vmem S512x1024 .f32) (h7 : a7.IsWhole)
    (hc0 : ¬cond0_0 i) (hc1 : cond0_1 i) (x0 : Vec F S512x2048 .bf16) (x1 : Vec F S2048x1024 .bf16) (x2 : Vec F S1024 .f32)
    (xs0 : Vec F S512x1024 .f32) :
    sout0_C_0 c i a3 h3 a4 h4 a5 h5 a6 h6 a7 h7 hc0 hc1 x0 x1 x2 xs0 = step xs0 x0 x1 := by
  unfold sout0_C_0
  rw [View.read_writes_eq_canon _ _ _ (scover0_C_0 c i a3 h3 a4 h4 a5 h5 a6 h6 a7 h7 hc0 hc1 x0 x1 x2 xs0)]
  unfold kernelRun0_C
  dsimp only
  sl_unfold_words
  rw [View.canon_unit_zero (S := S512x1024) hz2]
  simp only [View.readAt_eq_ld, h3.read_unread, h4.read_unread, h7.read_unread, View.ld_unit_zero (S := S512x2048) hz2,
    View.ld_unit_zero (S := S2048x1024) hz2, View.ld_unit_zero (S := S512x1024) hz2]

/-- Last point, the output block: `max ((acc + x·w) + bias, 0)`; the accumulated block is read back from the scratch
    right after it was stored. -/
theorem output_last (c : Dev nD) (i : grid0.Coords) (a3 : Memref sig .tc .vmem S512x2048 .bf16) (h3 : a3.IsWhole)
    (a4 : Memref sig .tc .vmem S2048x1024 .bf16) (h4 : a4.IsWhole) (a5 : Memref sig .tc .vmem S1024 .f32) (h5 : a5.IsWhole)
    (a6 : Memref sig .tc .vmem S512x1024 .f32) (h6 : a6.IsWhole) (a7 : Memref sig .tc .vmem S512x1024 .f32) (h7 : a7.IsWhole)
    (hc0 : ¬cond0_0 i) (hc1 : cond0_1 i) (x0 : Vec F S512x2048 .bf16) (x1 : Vec F S2048x1024 .bf16) (x2 : Vec F S1024 .f32)
    (xs0 : Vec F S512x1024 .f32) :
    out0_C_3 c i a3 h3 a4 h4 a5 h5 a6 h6 a7 h7 hc0 hc1 x0 x1 x2 xs0 = finish x2 (step xs0 x0 x1) := by
  unfold out0_C_3
  rw [View.read_writes_eq_canon _ _ _ (cover0_C_3 c i a3 h3 a4 h4 a5 h5 a6 h6 a7 h7 hc0 hc1 x0 x1 x2 xs0)]
  unfold kernelRun0_C
  dsimp only
  sl_unfold_words
  rw [View.canon_unit_zero (S := S512x1024) hz2, View.readCov_unit_zero (S := S512x1024) _ hz2]
  simp only [View.readAt_eq_ld, h3.read_unread, h4.read_unread, h5.read_unread, h7.read_unread,
    View.ld_unit_zero (S := S512x2048) hz2, View.ld_unit_zero (S := S2048x1024) hz2, View.ld_unit_zero (S := S512x1024) hz2,
    View.ld_unit_zero (S := S1024) hz1]

end Cert.KernelIdeal.Pieces

end
-- ==== Proof.Payload.lean ====
/-
  The body's three pure expressions read at one entry, over the extended reals.

  At the ideal instance a float is an extended real, a change of float format is the identity, the matrix unit's product
  into a zero accumulator is the plain sum of products over the contracted axis, `addf` is `+` and `maximumf` is `max`.
  So, at row `p` and column `q` of a [512, 1024] block:

    zero      reads  0
    step      reads  acc p q + (x·w) p q,   where (x·w) p q = ∑ k < 2048, x p k * w k q
    finish    reads  max (acc p q + bias q) 0

  (the bias row [1024] is viewed as [1, 1024] and repeated down the rows, so entry (p, q) sees `bias q`).
-/
import proofs.«159640_j36919538876542_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators
open Idealize.ShloMosaic Idealize.ShloMosaic.ValueIdx

namespace Cert.KernelIdeal.Payload

open Cert.KernelIdeal Cert.KernelIdeal.Gen

/-- The block a run starts from is zero everywhere. -/
theorem zero_apply (y : S512x1024.Idx) : k0_pay1 (F := Ideal) y = 0 := by
  unfold k0_pay1
  simp only [shapeCast_self]
  exact Ideal.ofBits_zero_f32

/-- The left operand's row at an output entry is the entry's row, whatever the contraction position. -/
theorem lhs_row (j : S512x1024.Idx) (k : dot_S512x2048_S2048x1024_S512x1024_1_0_0_1_n_n.contr.Idx) : (dot_S512x2048_S2048x1024_S512x1024_1_0_0_1_n_n.lhsIdx j k 0).val = (j 0).val := by
  unfold DotDims.lhsIdx
  rw [dif_neg (show ¬(0 : Fin S512x2048.rank) ∈ dot_S512x2048_S2048x1024_S512x1024_1_0_0_1_n_n.lhsBatch by decide),
    dif_pos (show (0 : Fin S512x2048.rank) ∈ dot_S512x2048_S2048x1024_S512x1024_1_0_0_1_n_n.lhsNonContracting by decide)]
  rfl
/-- Its column is the contraction position. -/
theorem lhs_col (j : S512x1024.Idx) (k : dot_S512x2048_S2048x1024_S512x1024_1_0_0_1_n_n.contr.Idx) : (dot_S512x2048_S2048x1024_S512x1024_1_0_0_1_n_n.lhsIdx j k 1).val = (k ⟨0, by decide⟩).val :=
  dot_S512x2048_S2048x1024_S512x1024_1_0_0_1_n_n.lhsIdx_val_of_single rfl j k
/-- The right operand's row is the contraction position. -/
theorem rhs_row (j : S512x1024.Idx) (k : dot_S512x2048_S2048x1024_S512x1024_1_0_0_1_n_n.contr.Idx) : (dot_S512x2048_S2048x1024_S512x1024_1_0_0_1_n_n.rhsIdx j k 0).val = (k ⟨0, by decide⟩).val :=
  dot_S512x2048_S2048x1024_S512x1024_1_0_0_1_n_n.rhsIdx_val_of_single rfl j k
/-- Its column is the entry's column. -/
theorem rhs_col (j : S512x1024.Idx) (k : dot_S512x2048_S2048x1024_S512x1024_1_0_0_1_n_n.contr.Idx) : (dot_S512x2048_S2048x1024_S512x1024_1_0_0_1_n_n.rhsIdx j k 1).val = (j 1).val := by
  unfold DotDims.rhsIdx
  rw [dif_neg (show ¬(1 : Fin S2048x1024.rank) ∈ dot_S512x2048_S2048x1024_S512x1024_1_0_0_1_n_n.rhsBatch by decide),
    dif_pos (show (1 : Fin S2048x1024.rank) ∈ dot_S512x2048_S2048x1024_S512x1024_1_0_0_1_n_n.rhsNonContracting by decide)]
  rfl

/-- The product of two blocks into a zero accumulator (the matrix unit's operation as the body uses it). -/
def prod (x : FVec Ideal S512x2048 .bf16) (w : FVec Ideal S2048x1024 .bf16) : FVec Ideal S512x1024 .f32 :=
  matmul dot_S512x2048_S2048x1024_S512x1024_1_0_0_1_n_n none x w (constant (F := Ideal) S512x1024 .f32 0x00000000#32)

/-- At an entry the product is the sum over the 2048 contraction positions of row times column. -/
theorem prod_apply (x : FVec Ideal S512x2048 .bf16) (w : FVec Ideal S2048x1024 .bf16) (p : Fin 512) (q : Fin 1024) :
    prod x w (ix2 p q) = ∑ k : Fin 2048, x (ix2 p k) * w (ix2 k q) := by
  unfold prod
  refine (Ideal.matmul_constant_zero_apply (φ₁ := .bf16) (φ₂ := .bf16) dot_S512x2048_S2048x1024_S512x1024_1_0_0_1_n_n none x w (ix2 p q)).trans ?_
  rw [← Equiv.sum_comp (contrEquiv1 dot_S512x2048_S2048x1024_S512x1024_1_0_0_1_n_n 2048 rfl rfl).symm]
  refine Finset.sum_congr rfl fun k _ => ?_
  have hk := contrEquiv1_symm_val dot_S512x2048_S2048x1024_S512x1024_1_0_0_1_n_n 2048 rfl rfl k
  have el : dot_S512x2048_S2048x1024_S512x1024_1_0_0_1_n_n.lhsIdx (ix2 p q) ((contrEquiv1 dot_S512x2048_S2048x1024_S512x1024_1_0_0_1_n_n 2048 rfl rfl).symm k) = ix2 p k :=
    funext fun a => Fin.ext (by
      match a with
      | ⟨0, _⟩ => exact lhs_row _ _
      | ⟨1, _⟩ => exact (lhs_col _ _).trans hk)
  have er : dot_S512x2048_S2048x1024_S512x1024_1_0_0_1_n_n.rhsIdx (ix2 p q) ((contrEquiv1 dot_S512x2048_S2048x1024_S512x1024_1_0_0_1_n_n 2048 rfl rfl).symm k) = ix2 k q :=
    funext fun a => Fin.ext (by
      match a with
      | ⟨0, _⟩ => exact (rhs_row _ _).trans hk
      | ⟨1, _⟩ => exact rhs_col _ _)
  rw [el, er]

/-- One accumulation step, at any entry: what was there plus the product's entry. -/
theorem step_eq (acc : Vec Ideal S512x1024 .f32) (x : FVec Ideal S512x2048 .bf16) (w : FVec Ideal S2048x1024 .bf16)
    (y : S512x1024.Idx) : k0_pay2 acc x w y = acc y + prod x w y := by
  unfold k0_pay2 prod
  simp only [shapeCast_self]
  rfl

/-- The epilogue at an entry: add the column's bias, then clamp below at zero. -/
theorem finish_apply (b : Vec Ideal S1024 .f32) (acc : Vec Ideal S512x1024 .f32) (p : Fin 512) (q : Fin 1024) :
    k0_pay3 b acc (ix2 p q) = max (acc (ix2 p q) + b (ix1 q)) 0 := by
  unfold k0_pay3
  refine congrArg₂ max (congrArg (acc (ix2 p q) + ·) ?_) Ideal.ofBits_zero_f32
  exact (broadcastTo_1b_ab_apply _ broadcasts_S1x1024_S512x1024 p q).trans
    (shapeCast_a_1a_apply b shapeCasts_S1024_S1x1024 0 q)

end Cert.KernelIdeal.Payload

end
-- ==== Proof.Blocks.lean ====
/-
  Where each window's block sits in its array.

  The grid has 4 × 4 × 4 points, visited in row-major order: point `t` has row-block `t / 16`, column-block
  `t / 4 % 4` and K-run `t % 4`. At that point, entry (·, ·) of a block sits in its array at

    * left operand  [512, 2048] in [2048, 8192]:  rows `512·(t/16) + p`, columns `2048·(t%4) + k`;
    * right operand [2048, 1024] in [8192, 4096]: rows `2048·(t%4) + k`, columns `1024·(t/4%4) + q`;
    * bias          [1024] in [4096]:             entries `1024·(t/4%4) + q`;
    * output        [512, 1024] in [2048, 4096]:  rows `512·(t/16) + p`, columns `1024·(t/4%4) + q`.

  A block's coordinate in its array is always block index × block size + the coordinate inside the block; the block
  indices are the printed index maps, decided once over the 64 points. Only positions are stated here, never contents.
-/
import proofs.«159640_j36919538876542_1_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem Idealize.ShloMosaic.ValueIdx

namespace Cert.KernelIdeal.Blocks

open Cert.KernelIdeal Cert.KernelIdeal.Gen

/-- The four index maps in closed form over the grid. -/
theorem index_facts : ∀ t : Fin cfg0.N,
    win0_0.index t (0 : Fin 2) = t.val / 16 ∧ win0_0.index t (1 : Fin 2) = t.val % 4
    ∧ win0_1.index t (0 : Fin 2) = t.val % 4 ∧ win0_1.index t (1 : Fin 2) = t.val / 4 % 4
    ∧ win0_2.index t (0 : Fin 1) = t.val / 4 % 4
    ∧ win0_3.index t (0 : Fin 2) = t.val / 16 ∧ win0_3.index t (1 : Fin 2) = t.val / 4 % 4 :=
  (by decide +kernel : ∀ t : Fin grid0.N, _)

/-- Position of an entry of the left operand's block at point `t`. -/
theorem left_pos (t : Fin cfg0.N) (p : Fin 512) (k : Fin 2048) (r : Fin 2048) (n : Fin 8192)
    (hr : r.val = 512 * (t.val / 16) + p.val) (hn : n.val = 2048 * (t.val % 4) + k.val) :
    ((cfg0.win 0).blk t).view.emb (ix2 p k) = (ix2 r n : S2048x8192.Idx) := by
  obtain ⟨e0, e1, -⟩ := index_facts t
  refine funext fun a => Fin.ext ?_
  match a with
  | ⟨0, _⟩ => show win0_0.index t (0 : Fin 2) * 512 + 1 * p.val = r.val; omega
  | ⟨1, _⟩ => show win0_0.index t (1 : Fin 2) * 2048 + 1 * k.val = n.val; omega

/-- Position of an entry of the right operand's block at point `t`. -/
theorem right_pos (t : Fin cfg0.N) (k : Fin 2048) (q : Fin 1024) (n : Fin 8192) (cc : Fin 4096)
    (hn : n.val = 2048 * (t.val % 4) + k.val) (hc : cc.val = 1024 * (t.val / 4 % 4) + q.val) :
    ((cfg0.win 1).blk t).view.emb (ix2 k q) = (ix2 n cc : S8192x4096.Idx) := by
  obtain ⟨-, -, e2, e3, -⟩ := index_facts t
  refine funext fun a => Fin.ext ?_
  match a with
  | ⟨0, _⟩ => show win0_1.index t (0 : Fin 2) * 2048 + 1 * k.val = n.val; omega
  | ⟨1, _⟩ => show win0_1.index t (1 : Fin 2) * 1024 + 1 * q.val = cc.val; omega

/-- Position of an entry of the bias block at point `t`. -/
theorem bias_pos (t : Fin cfg0.N) (q : Fin 1024) (cc : Fin 4096) (hc : cc.val = 1024 * (t.val / 4 % 4) + q.val) :
    ((cfg0.win 2).blk t).view.emb (ix1 q) = (ix1 cc : S4096.Idx) := by
  obtain ⟨-, -, -, -, e4, -⟩ := index_facts t
  refine funext fun a => Fin.ext ?_
  match a with
  | ⟨0, _⟩ => show win0_2.index t (0 : Fin 1) * 1024 + 1 * q.val = cc.val; omega

/-- Position of an entry of the output's block at point `t`. -/
theorem out_pos (t : Fin cfg0.N) (p : Fin 512) (q : Fin 1024) (r : Fin 2048) (cc : Fin 4096)
    (hr : r.val = 512 * (t.val / 16) + p.val) (hc : cc.val = 1024 * (t.val / 4 % 4) + q.val) :
    ((cfg0.win 3).blk t).view.emb (ix2 p q) = (ix2 r cc : S2048x4096.Idx) := by
  obtain ⟨-, -, -, -, -, e5, e6⟩ := index_facts t
  refine funext fun a => Fin.ext ?_
  match a with
  | ⟨0, _⟩ => show win0_3.index t (0 : Fin 2) * 512 + 1 * p.val = r.val; omega
  | ⟨1, _⟩ => show win0_3.index t (1 : Fin 2) * 1024 + 1 * q.val = cc.val; omega

/-- An index of the result array lies in point `t`'s output block iff each coordinate is in the block's range. -/
theorem mem_out_block (t : Fin cfg0.N) (i : S2048x4096.Idx) :
    i ∈ ((cfg0.win 3).blk t).view.set ↔ ∀ a : Fin 2, win0_3.index t a * S512x1024.size a ≤ (i a).val
      ∧ (i a).val < win0_3.index t a * S512x1024.size a + S512x1024.size a := by
  show i ∈ ((View.whole main_v17).slice (win0_3.rect t)).set ↔ _
  rw [View.set_slice_whole, Rect.mem_set_unit]
  exact Iff.rfl

end Cert.KernelIdeal.Blocks

end
-- ==== Proof.BlockSum.lean ====
/-
  A sum over the naturals below `a * B` is the sum, over the `a` consecutive runs of length `B`, of each run's sum.
  Only associativity and commutativity of addition are used, so the statement holds in any additive commutative
  monoid — in particular on the extended reals, where no finiteness is needed for it.
-/
import Mathlib.Algebra.BigOperators.Intervals

open scoped BigOperators

namespace Cert.Bridge

/-- `∑_{n < a·B} f n = ∑_{s < a} ∑_{k < B} f (s·B + k)`: the index `n` is written as run `s` and offset `k`. -/
theorem sum_range_runs {β : Type*} [AddCommMonoid β] (f : ℕ → β) (B : ℕ) :
    ∀ a : ℕ, ∑ n ∈ Finset.range (a * B), f n = ∑ s ∈ Finset.range a, ∑ k ∈ Finset.range B, f (s * B + k)
  | 0 => by simp
  | a + 1 => by
    rw [Nat.succ_mul, Finset.sum_range_add, sum_range_runs f B a, Finset.sum_range_succ]

end Cert.Bridge
-- ==== Proof.Spec.lean ====
/-
  The function both programs compute, and the one law that joins their two arrangements of it.

  For `X` [2048, 8192], `W` [8192, 4096] and a bias row `B` [4096] over the extended reals,

      dense X W B (r, c) = max ( (∑ k < 8192, X r k * W k c) + B c , 0 ).

  One program sums the 8192 products in one go. The other cuts the contracted axis into four consecutive runs of
  2048, starts from zero, and adds the runs' sums one after another:
  `(((0 + S₀) + S₁) + S₂) + S₃` with `S_s = ∑ k < 2048, X r (2048 s + k) * W (2048 s + k) c`.
  The two agree because addition of extended reals is associative and commutative with unit `0`
  (`sum_range_runs`); nothing is cancelled or distributed, so infinite entries need no special care.

  To cut the sum, the summand is written as a function of the natural position `n` on the contracted axis
  (`term`, zero beyond the axis: those values are never used).
-/
import Idealize.ShloMosaic.Lib.ValueIdx
import proofs.«159640_j36919538876542_1_alg».proof.Proof.BlockSum

noncomputable section

open scoped BigOperators
open Idealize.ShloMosaic Idealize.ShloMosaic.ValueIdx

namespace Cert.Bridge

/-- The left operand, the right operand, the bias row and the result, as arrays of extended reals. -/
abbrev Lhs : Type := (⟨2, ![2048, 8192]⟩ : Shape).Idx → EReal
abbrev Rhs : Type := (⟨2, ![8192, 4096]⟩ : Shape).Idx → EReal
abbrev BiasRow : Type := (⟨1, ![4096]⟩ : Shape).Idx → EReal
abbrev Result : Type := (⟨2, ![2048, 4096]⟩ : Shape).Idx → EReal

/-- One entry of the result: the row–column product, plus the column's bias, clamped below at zero. -/
def entry (X : Lhs) (W : Rhs) (B : BiasRow) (r : Fin 2048) (c : Fin 4096) : EReal :=
  max ((∑ k : Fin 8192, X (ix2 r k) * W (ix2 k c)) + B (ix1 c)) 0

/-- The whole result. -/
def dense (X : Lhs) (W : Rhs) (B : BiasRow) : Result :=
  fun i => entry X W B ⟨(i 0).val, idx2_lt0 i⟩ ⟨(i 1).val, idx2_lt1 i⟩

theorem dense_ix2 (X : Lhs) (W : Rhs) (B : BiasRow) (r : Fin 2048) (c : Fin 4096) :
    dense X W B (ix2 r c) = entry X W B r c := rfl

/-- The product at position `n` of the contracted axis. -/
def term (X : Lhs) (W : Rhs) (r : Fin 2048) (c : Fin 4096) (n : ℕ) : EReal :=
  if h : n < 8192 then X (ix2 r ⟨n, h⟩) * W (ix2 ⟨n, h⟩ c) else 0

theorem term_fin (X : Lhs) (W : Rhs) (r : Fin 2048) (c : Fin 4096) (k : Fin 8192) :
    term X W r c k.val = X (ix2 r k) * W (ix2 k c) := by
  unfold term
  rw [dif_pos k.isLt]

/-- The full sum, cut into its four runs of 2048. -/
theorem sum_entry (X : Lhs) (W : Rhs) (r : Fin 2048) (c : Fin 4096) :
    ∑ k : Fin 8192, X (ix2 r k) * W (ix2 k c)
      = ∑ s ∈ Finset.range 4, ∑ k ∈ Finset.range 2048, term X W r c (s * 2048 + k) := by
  have h := sum_range_runs (term X W r c) 2048 4
  rw [show (4 * 2048 : ℕ) = 8192 from rfl] at h
  rw [← h, Finset.sum_range]
  exact Finset.sum_congr rfl fun k _ => (term_fin X W r c k).symm

/-- A sum of 2048 products that are, position by position, those of run `s`, is that run's sum. -/
theorem run_sum (X : Lhs) (W : Rhs) (r : Fin 2048) (c : Fin 4096) (s : ℕ) (hs : s < 4) (g : Fin 2048 → EReal)
    (hg : ∀ (k : Fin 2048) (n : Fin 8192), n.val = s * 2048 + k.val → g k = X (ix2 r n) * W (ix2 n c)) :
    ∑ k : Fin 2048, g k = ∑ k ∈ Finset.range 2048, term X W r c (s * 2048 + k) := by
  rw [Finset.sum_range]
  refine Finset.sum_congr rfl fun k _ => ?_
  have hk := k.isLt
  have hn : s * 2048 + k.val < 8192 := by omega
  rw [hg k ⟨s * 2048 + k.val, hn⟩ rfl]
  exact (term_fin X W r c ⟨s * 2048 + k.val, hn⟩).symm

/-- The accumulated arrangement is the entry: from a zero start, the four runs' sums added in order, then the bias,
    then the clamp. -/
theorem entry_of_runs (X : Lhs) (W : Rhs) (B : BiasRow) (r : Fin 2048) (c : Fin 4096) (z : EReal) (hz : z = 0)
    (A : ℕ → EReal) (hA : ∀ s, s < 4 → A s = ∑ k ∈ Finset.range 2048, term X W r c (s * 2048 + k)) :
    max ((z + ∑ s ∈ Finset.range 4, A s) + B (ix1 c)) 0 = entry X W B r c := by
  unfold entry
  rw [sum_entry, hz, zero_add]
  refine congrArg (fun v => max (v + B (ix1 c)) 0) ?_
  exact Finset.sum_congr rfl fun s hs => hA s (Finset.mem_range.mp hs)

end Cert.Bridge

end
-- ==== Proof.KernelDense.lean ====
/-
  The kernel's result array is `dense` of the three arrays the pallas_call finds.

  Fix a row-block `i` and a column-block `j`. The four grid points `b, b+1, b+2, b+3` with `b = 16 i + 4 j` are the four
  K-runs of that output block, visited consecutively. The scratch block the body carries holds, after point `b + s`
  (`s ≤ 2`), `0 + P_b + … + P_{b+s}`, where `P_n` is the product of point `n`'s two input blocks — a fold whose
  first step starts from the zero block and whose later steps each add that point's product. At point `b + 3` the
  body adds `P_{b+3}` as well, then the bias row, clamps at zero, and that is the block written back.

  Read at entry (p, q) of the block, `P_{b+s}` is `∑ k < 2048, X (512 i + p) (2048 s + k) * W (2048 s + k) (1024 j + q)`:
  run `s` of the full contraction, for the arrays `X`, `W` (and `B`) the windows' blocks are pieces of. So the written
  block is `dense X W B` read through the block's rectangle (`Bridge.entry_of_runs`), and since the sixteen written
  blocks tile the [2048, 4096] array, the array ends at `dense X W B`.
-/
import proofs.«159640_j36919538876542_1_alg».proof.Proof.Gen.KernelIdeal.Value
import proofs.«159640_j36919538876542_1_alg».proof.Proof.Pieces
import proofs.«159640_j36919538876542_1_alg».proof.Proof.Payload
import proofs.«159640_j36919538876542_1_alg».proof.Proof.Blocks
import proofs.«159640_j36919538876542_1_alg».proof.Proof.Spec

noncomputable section

open scoped BigOperators
open Idealize.ShloMosaic Idealize.ShloMosaic.TcCoe Idealize.SL.Sem Idealize.ShloMosaic.ValueIdx
open Idealize.ShloMosaic.Pipeline (Dat)

namespace Cert.KernelIdeal.KernelDense

open Cert.KernelIdeal Cert.KernelIdeal.Gen Cert.Bridge

variable (m : (ℓ : Loc nD τ sig) → Buf (Elt Ideal) ℓ) (ρ : Dev nD → PrngReg)

/-! ## The scratch block, point by point -/

/-- At the first point of a run the scratch is left at `0 + x·w`, whatever it held. -/
theorem scratch_at_first (c : Dev nD) (n : ℕ) (hn : n < cfg0.N) (h0 : n % 4 = 0) (acc : Vec Ideal S512x1024 .f32) :
    Value.scAt0_0 m c n hn acc
      = Pieces.step (Pieces.zeroBlock (F := Ideal)) (iblk m c 0 ⟨n, hn⟩) (iblk m c 1 ⟨n, hn⟩) := by
  unfold Value.scAt0_0
  rw [dif_pos h0, dif_neg (by omega)]
  exact Pieces.scratch_first ..

/-- At a middle point it is left at `acc + x·w`. -/
theorem scratch_at_middle (c : Dev nD) (n : ℕ) (hn : n < cfg0.N) (h0 : ¬n % 4 = 0) (h1 : ¬n % 4 = 3)
    (acc : Vec Ideal S512x1024 .f32) :
    Value.scAt0_0 m c n hn acc = Pieces.step acc (iblk m c 0 ⟨n, hn⟩) (iblk m c 1 ⟨n, hn⟩) := by
  unfold Value.scAt0_0
  rw [dif_neg h0, dif_neg h1]
  exact Pieces.scratch_middle ..

/-- Point `n`'s product block `P_n` (zero past the grid: never used). -/
def product (c : Dev nD) (n : ℕ) : S512x1024.Idx → EReal :=
  if h : n < cfg0.N then Payload.prod (iblk m c 0 ⟨n, h⟩) (iblk m c 1 ⟨n, h⟩) else fun _ => 0

theorem product_lt (c : Dev nD) (n : ℕ) (h : n < cfg0.N) :
    product m c n = Payload.prod (iblk m c 0 ⟨n, h⟩) (iblk m c 1 ⟨n, h⟩) := by
  unfold product
  rw [dif_pos h]

/-- The fold that gives the scratch after point `b + j` of a run starting at `b` is `0 + P_b + … + P_{b+j}`, for the
    run's first three points. -/
theorem scratch_fold (c : Dev nD) (b : ℕ) (hb : b % 4 = 0) (j : ℕ) (hj : j ≤ 2) (h : b + j < cfg0.N) (y : S512x1024.Idx) :
    Pipeline.accAt (fun n h => Value.scAt0_0 m c n h (VS0_0.read (Elt Ideal) VS0_0.junk)) (Value.scAt0_0 m c) b j h y
      = Pieces.zeroBlock (F := Ideal) y + ∑ s ∈ Finset.range (j + 1), product m c (b + s) y := by
  refine Pipeline.accAt_add_apply (ι := S512x1024.Idx) (β := EReal) _ _ (Pieces.zeroBlock (F := Ideal)) (product m c) b 2
    ?_ ?_ j hj h y
  · intro hb' i
    rw [scratch_at_first m c b hb' hb, product_lt m c b hb']
    exact Payload.step_eq _ _ _ i
  · intro n hn acc i h1 h2
    rw [scratch_at_middle m c n hn (by omega) (by omega), product_lt m c n hn]
    exact Payload.step_eq _ _ _ i

/-- A fold does not depend on how its starting point and length are spelt. -/
theorem accAt_congr {α : Type} {N : ℕ} (a : (n : ℕ) → n < N → α) (g : (n : ℕ) → n < N → α → α)
    (b b' j j' : ℕ) (eb : b = b') (ej : j = j') (h : b + j < N) (h' : b' + j' < N) :
    Pipeline.accAt a g b j h = Pipeline.accAt a g b' j' h' := by
  subst eb ej
  rfl

/-! ## What the windows read

The statement below is about ANY three arrays `X`, `W`, `B` that the windows' blocks are pieces of; which arrays the
pallas_call really finds is a separate matter (it finds them after the host operations that precede it). -/

/-- The three input windows' blocks are the pieces of `X`, `W`, `B` at the positions their index maps give. -/
structure Reads (c : Dev nD) (X : Lhs) (W : Rhs) (B : BiasRow) : Prop where
  left : ∀ (t : Fin cfg0.N) (p : Fin 512) (k : Fin 2048) (r : Fin 2048) (n : Fin 8192),
    r.val = 512 * (t.val / 16) + p.val → n.val = 2048 * (t.val % 4) + k.val →
    (iblk m c 0 t : Vec Ideal S512x2048 .bf16) (ix2 p k) = X (ix2 r n)
  right : ∀ (t : Fin cfg0.N) (k : Fin 2048) (q : Fin 1024) (n : Fin 8192) (cc : Fin 4096),
    n.val = 2048 * (t.val % 4) + k.val → cc.val = 1024 * (t.val / 4 % 4) + q.val →
    (iblk m c 1 t : Vec Ideal S2048x1024 .bf16) (ix2 k q) = W (ix2 n cc)
  bias : ∀ (t : Fin cfg0.N) (q : Fin 1024) (cc : Fin 4096),
    cc.val = 1024 * (t.val / 4 % 4) + q.val →
    (iblk m c 2 t : Vec Ideal S1024 .f32) (ix1 q) = B (ix1 cc)

/-! ## The block written back at the last point of a run -/

/-- Entry (p, q) of what the last point `t` of a run leaves in the output block: zero, plus the four products of the
    run's points at that entry, plus the bias, clamped. -/
theorem written_entry (c : Dev nD) (t : Fin cfg0.N) (h3 : t.val % 4 = 3) (p : Fin 512) (q : Fin 1024) :
    (outsAt0 m c t.val t.isLt).1 (ix2 p q)
      = max ((Pieces.zeroBlock (F := Ideal) (ix2 p q) + ∑ s ∈ Finset.range 4, product m c (t.val - 3 + s) (ix2 p q))
          + (iblk m c 2 t : Vec Ideal S1024 .f32) (ix1 q)) 0 := by
  have hN : cfg0.N = 64 := N_0
  have ht := t.isLt
  have hprev : (outsAt0 m c (t.val - 1) (Nat.lt_of_le_of_lt (Nat.sub_le _ _) t.isLt)).2 (ix2 p q)
      = Pieces.zeroBlock (F := Ideal) (ix2 p q) + ∑ s ∈ Finset.range 3, product m c (t.val - 3 + s) (ix2 p q) := by
    refine (congrFun (Value.soutsAt0_0_eq m c ⟨t.val - 1, by omega⟩) (ix2 p q)).trans ?_
    rw [accAt_congr _ _ _ (t.val - 3) _ 2 (by show 4 * ((t.val - 1) / 4) = t.val - 3; omega)
      (by show (t.val - 1) % 4 = 2; omega) _ (by omega)]
    exact scratch_fold m c (t.val - 3) (by omega) 2 (le_refl 2) (by omega) (ix2 p q)
  have hlast : (⟨t.val - 3 + 3, by omega⟩ : Fin cfg0.N) = t := Fin.ext (by show t.val - 3 + 3 = t.val; omega)
  rw [outsAt0_C m c t (by omega) h3]
  dsimp only
  rw [Pieces.output_last]
  show k0_pay3 (iblk m c 2 t) (k0_pay2 (outsAt0 m c (t.val - 1) _).2 (iblk m c 0 t) (iblk m c 1 t)) (ix2 p q) = _
  rw [Payload.finish_apply, Payload.step_eq, hprev, Finset.sum_range_succ _ 3,
    product_lt m c (t.val - 3 + 3) (by omega), hlast, add_assoc (Pieces.zeroBlock (F := Ideal) (ix2 p q))]

/-- What the last point of a run writes back is `dense` of the arrays the windows read, through the point's block. -/
theorem flushed_eq (c : Dev nD) (X : Lhs) (W : Rhs) (B : BiasRow) (hR : Reads m c X W B)
    (t : Fin cfg0.N) (hf : (cfg0.win 3).flush t = true) :
    (dats m 0 c).flushed 3 t = ((cfg0.win 3).blk t).view.read (Elt Ideal) (dense X W B) := by
  have h3 : t.val % 4 = 3 := (flush0_3 t).mp hf
  have hN : cfg0.N = 64 := N_0
  have ht := t.isLt
  rw [Value.flushed3]
  funext j
  obtain ⟨p, q, rfl⟩ : ∃ (p : Fin 512) (q : Fin 1024), j = ix2 p q := ⟨j 0, j 1, eq_ix2 j⟩
  show (outsAt0 m c t.val t.isLt).1 (ix2 p q) = dense X W B (((cfg0.win 3).blk t).view.emb (ix2 p q))
  have hp := p.isLt
  have hq := q.isLt
  rw [Blocks.out_pos t p q ⟨512 * (t.val / 16) + p.val, by omega⟩ ⟨1024 * (t.val / 4 % 4) + q.val, by omega⟩ rfl rfl,
    dense_ix2, written_entry m c t h3 p q,
    hR.bias t q ⟨1024 * (t.val / 4 % 4) + q.val, by omega⟩ rfl]
  refine entry_of_runs _ _ _ _ _ _ (Payload.zero_apply _) (fun s => product m c (t.val - 3 + s) (ix2 p q)) ?_
  intro s hs
  rw [product_lt m c (t.val - 3 + s) (by omega), Payload.prod_apply]
  refine run_sum _ _ _ _ s hs _ ?_
  intro k n hn
  have hk := k.isLt
  rw [hR.left ⟨t.val - 3 + s, by omega⟩ p k ⟨512 * (t.val / 16) + p.val, by omega⟩ n
      (by show 512 * (t.val / 16) + p.val = 512 * ((t.val - 3 + s) / 16) + p.val; omega)
      (by show n.val = 2048 * ((t.val - 3 + s) % 4) + k.val; omega),
    hR.right ⟨t.val - 3 + s, by omega⟩ k q n ⟨1024 * (t.val / 4 % 4) + q.val, by omega⟩
      (by show n.val = 2048 * ((t.val - 3 + s) % 4) + k.val; omega)
      (by show 1024 * (t.val / 4 % 4) + q.val = 1024 * ((t.val - 3 + s) / 4 % 4) + q.val; omega)]

/-- Every entry of the result array lies in the block of some run's last point. -/
theorem cover (i : S2048x4096.Idx) :
    ∃ t : Fin cfg0.N, (cfg0.win 3).flush t = true ∧ i ∈ ((cfg0.win 3).blk t).view.set := by
  have h0 : (i 0).val < 2048 := idx2_lt0 i
  have h1 : (i 1).val < 4096 := idx2_lt1 i
  have hN : cfg0.N = 64 := N_0
  have hb : 16 * ((i 0).val / 512) + 4 * ((i 1).val / 1024) + 3 < cfg0.N := by omega
  obtain ⟨-, -, -, -, -, e5, e6⟩ := Blocks.index_facts ⟨16 * ((i 0).val / 512) + 4 * ((i 1).val / 1024) + 3, hb⟩
  have e5' : win0_3.index ⟨16 * ((i 0).val / 512) + 4 * ((i 1).val / 1024) + 3, hb⟩ (0 : Fin 2)
      = (16 * ((i 0).val / 512) + 4 * ((i 1).val / 1024) + 3) / 16 := e5
  have e6' : win0_3.index ⟨16 * ((i 0).val / 512) + 4 * ((i 1).val / 1024) + 3, hb⟩ (1 : Fin 2)
      = (16 * ((i 0).val / 512) + 4 * ((i 1).val / 1024) + 3) / 4 % 4 := e6
  refine ⟨⟨16 * ((i 0).val / 512) + 4 * ((i 1).val / 1024) + 3, hb⟩,
    (flush0_3 _).mpr (by show (16 * ((i 0).val / 512) + 4 * ((i 1).val / 1024) + 3) % 4 = 3; omega), ?_⟩
  rw [Blocks.mem_out_block]
  intro a
  match a with
  | ⟨0, _⟩ =>
    show win0_3.index ⟨16 * ((i 0).val / 512) + 4 * ((i 1).val / 1024) + 3, hb⟩ (0 : Fin 2) * 512 ≤ (i 0).val
      ∧ (i 0).val < win0_3.index ⟨16 * ((i 0).val / 512) + 4 * ((i 1).val / 1024) + 3, hb⟩ (0 : Fin 2) * 512 + 512
    omega
  | ⟨1, _⟩ =>
    show win0_3.index ⟨16 * ((i 0).val / 512) + 4 * ((i 1).val / 1024) + 3, hb⟩ (1 : Fin 2) * 1024 ≤ (i 1).val
      ∧ (i 1).val < win0_3.index ⟨16 * ((i 0).val / 512) + 4 * ((i 1).val / 1024) + 3, hb⟩ (1 : Fin 2) * 1024 + 1024
    omega

/-- So the result array ends at `dense` of the three arrays the windows read. -/
theorem final (c : Dev nD) (X : Lhs) (W : Rhs) (B : BiasRow) (hR : Reads m c X W B) :
    (dats m 0 c).arrAt 3 cfg0.N = dense X W B :=
  (dats m 0 c).arrAt_eq_of_cover 3 (dense X W B) (flushed_eq m c X W B hR) cover

end Cert.KernelIdeal.KernelDense

end
-- ==== Proof.HostSide.lean ====
/-
  What the pallas_call finds in its three arrays, in terms of the program's arguments.

  Before the call the host program builds the dense [8192, 4096] weight matrix: negative row and column indices are
  wrapped by adding the extent (8192, 4096), the two index vectors are laid side by side as [1679360, 2] pairs, and the
  flat weight vector is scattered at those pairs over a zero matrix (a later value replaces an earlier one). It then
  narrows the input matrix and the weight matrix to a shorter float format, which over the extended reals is the
  identity. So

    * the left operand is the first argument itself;
    * the right operand is the scattered matrix `scattered`, whose four pieces (`wrapRows`-like index wrapping, the
      pairs, the zero matrix, the scatter) are, one by one, the reference program's own — the same operations on the
      same constants —, so that it equals the reference's scattered matrix without the scatter ever being opened;
    * the bias row is the third argument, untouched by the host program.
-/
import proofs.«159640_j36919538876542_1_alg».proof.Proof.Gen.KernelIdeal.Frame
import proofs.«159640_j36919538876542_1_alg».proof.Proof.Gen.ReferenceIdeal.Read
import Idealize.ShloMosaic.Lib.StableHlo.Run
import Idealize.ShloMosaic.Lib.ValueIdx

noncomputable section

open Idealize.ShloMosaic Idealize.ShloMosaic.TcCoe Idealize.SL.Sem Idealize.ShloMosaic.StableHlo

namespace Cert.KernelIdeal.HostSide

open Cert.KernelIdeal Cert.KernelIdeal.Gen

/-! ## The scattered weight matrix, piece by piece -/

/-- A vector of 1679360 integer indices. -/
abbrev IndexVec : Type := S1679360.Idx → BitVec 32

/-- Row indices, a negative one wrapped by the extent 8192. -/
def wrapRows (x3 : IndexVec) : IndexVec :=
  select (cmpi .slt x3 (broadcastInDim S1679360 ![] bcast_S_S1679360 (constantI S_ 32 0#32)))
    (addi x3 (broadcastInDim S1679360 ![] bcast_S_S1679360 (constantI S_ 32 8192#32))) x3

/-- Column indices, a negative one wrapped by the extent 4096. -/
def wrapCols (x4 : IndexVec) : IndexVec :=
  select (cmpi .slt x4 (broadcastInDim S1679360 ![] bcast_S_S1679360 (constantI S_ 32 0#32)))
    (addi x4 (broadcastInDim S1679360 ![] bcast_S_S1679360 (constantI S_ 32 4096#32))) x4

/-- The (row, column) pairs, as a [1679360, 2] array. -/
def pairs (x3 x4 : IndexVec) : S1679360x2.Idx → BitVec 32 :=
  concatenate S1679360x2 1
    [⟨S1679360x1, broadcastInDim S1679360x1 ![0] bcast_S1679360_S1679360x1_0 (wrapRows x3)⟩,
     ⟨S1679360x1, broadcastInDim S1679360x1 ![0] bcast_S1679360_S1679360x1_0 (wrapCols x4)⟩]
    concatenates_S1679360x1_S1679360x1_S1679360x2_d1

/-- The zero matrix the scatter starts from. -/
def zeroMat : S8192x4096.Idx → EReal :=
  broadcastInDim S8192x4096 ![] bcast_S_S8192x4096 (constant (F := Ideal) S_ .f32 0x00000000#32)

/-- The weight vector `x1` scattered at the pairs over the zero matrix. -/
def scattered (x1 : S1679360.Idx → EReal) (x3 x4 : IndexVec) : S8192x4096.Idx → EReal :=
  Host.scatter scatter_S8192x4096_S1679360x2_S1679360_n_01_01_1 (fun _ b => b) zeroMat (pairs x3 x4) x1

theorem wrapRows_ref (x3 : IndexVec) : wrapRows x3 = Cert.ReferenceIdeal.Read.val_main_v5 (F := Ideal) x3 := rfl
theorem wrapCols_ref (x4 : IndexVec) : wrapCols x4 = Cert.ReferenceIdeal.Read.val_main_v10 (F := Ideal) x4 := rfl
theorem zeroMat_ref : zeroMat = Cert.ReferenceIdeal.Read.val_main_v0 (F := Ideal) := rfl
theorem dims_ref : scatter_S8192x4096_S1679360x2_S1679360_n_01_01_1
    = Cert.ReferenceIdeal.scatter_S8192x4096_S1679360x2_S1679360_n_01_01_1 := rfl

theorem pairs_ref (x3 x4 : IndexVec) : pairs x3 x4 = Cert.ReferenceIdeal.Read.val_main_v13 (F := Ideal) x3 x4 := by
  unfold pairs Cert.ReferenceIdeal.Read.val_main_v13 Cert.ReferenceIdeal.Read.val_main_v11
    Cert.ReferenceIdeal.Read.val_main_v12
  rw [wrapRows_ref, wrapCols_ref]

/-- The scattered matrix is the reference's, as a function of the same three arguments. -/
theorem scattered_ref (x1 : S1679360.Idx → EReal) (x3 x4 : IndexVec) :
    scattered x1 x3 x4 = Cert.ReferenceIdeal.Read.val_main_v14 (F := Ideal) x1 x3 x4 := by
  unfold scattered Cert.ReferenceIdeal.Read.val_main_v14
  rw [pairs_ref, zeroMat_ref, dims_ref]

/-! ## The three arrays as the call finds them -/

variable (m : (ℓ : Loc nD τ sig) → Buf (Elt Ideal) ℓ)

/-- The left operand as the call finds it is the first argument. -/
theorem left_array (c : Dev nD) :
    (V m c main_v15 : S2048x8192.Idx → EReal) = m ((c : Thread nD τ).loc main_arg0) := by
  dsimp only [V, hostOps0]
  after_results
  rfl

set_option maxHeartbeats 4000000 in
/-- The right operand as the call finds it is the narrowed scattered matrix of the arguments. -/
theorem right_array_narrowed (c : Dev nD) :
    (V m c main_v16 : S8192x4096.Idx → EReal)
      = truncf (F := Ideal) .bf16 (scattered (m ((c : Thread nD τ).loc main_arg1)) (m ((c : Thread nD τ).loc main_arg3))
          (m ((c : Thread nD τ).loc main_arg4))) bitsLt_bf16_f32 := by
  unfold scattered pairs wrapRows wrapCols zeroMat
  dsimp only [V, hostOps0]
  after_results_simp
  repeat (first
    | rw [nullary_result] | rw [unary_result] | rw [binary_result] | rw [ternary_result]
    | (rw [nullary_result_ne]; rotate_left; decide)
    | (rw [unary_result_ne]; rotate_left; decide)
    | (rw [binary_result_ne]; rotate_left; decide)
    | (rw [ternary_result_ne]; rotate_left; decide))

/-- Narrowing is the identity on extended reals: the right operand is the reference's scattered matrix. -/
theorem right_array (c : Dev nD) :
    (V m c main_v16 : S8192x4096.Idx → EReal)
      = Cert.ReferenceIdeal.Read.val_main_v14 (F := Ideal) (m ((c : Thread nD τ).loc main_arg1))
          (m ((c : Thread nD τ).loc main_arg3)) (m ((c : Thread nD τ).loc main_arg4)) := by
  rw [right_array_narrowed, scattered_ref]
  exact funext fun i => ValueIdx.truncf_apply _ _ i

/-- The bias row as the call finds it is the third argument. -/
theorem bias_array (c : Dev nD) :
    (V m c main_arg2 : S4096.Idx → EReal) = m ((c : Thread nD τ).loc main_arg2) :=
  V_main_arg2 m c

end Cert.KernelIdeal.HostSide

end
-- ==== Proof.RefDense.lean ====
/-
  The reference program's result is `dense`.

  Read one operation at a time, entry (r, c) of the reference's result is
  `max ( (∑ k < 8192, x r k * w k c) + b c , 0 )`: the matrix product as the sum over the contracted axis, the bias
  row repeated down the rows, and the clamp against a zero matrix. The weight matrix `w` is the scattered matrix; it
  enters only through its entries and is not opened.
-/
import proofs.«159640_j36919538876542_1_alg».proof.Proof.Gen.ReferenceIdeal.Read
import proofs.«159640_j36919538876542_1_alg».proof.Proof.Spec

noncomputable section

open scoped BigOperators
open Idealize.ShloMosaic Idealize.ShloMosaic.ValueIdx

namespace Cert.ReferenceIdeal.RefDense

open Cert.ReferenceIdeal Cert.ReferenceIdeal.Read Cert.Bridge

theorem result_is_dense (x0 : (⟨S2048x8192, .f32⟩ : BufTy).Contents (Elt Ideal))
    (x1 : (⟨S1679360, .f32⟩ : BufTy).Contents (Elt Ideal)) (x2 : (⟨S4096, .f32⟩ : BufTy).Contents (Elt Ideal))
    (x3 x4 : (⟨S1679360, .i32⟩ : BufTy).Contents (Elt Ideal)) :
    val_main_v19 (F := Ideal) x0 x1 x2 x3 x4 = dense x0 (val_main_v14 (F := Ideal) x1 x3 x4) x2 := by
  funext i
  obtain ⟨r, c, rfl⟩ : ∃ (r : Fin 2048) (c : Fin 4096), i = ix2 r c := ⟨i 0, i 1, eq_ix2 i⟩
  have el : ∀ k : Fin 8192, lidx_main_v15 (ix2 r c) k = ix2 r k := fun k =>
    funext fun a => Fin.ext (by match a with | ⟨0, _⟩ => rfl | ⟨1, _⟩ => rfl)
  have er : ∀ k : Fin 8192, ridx_main_v15 (ix2 r c) k = ix2 k c := fun k =>
    funext fun a => Fin.ext (by match a with | ⟨0, _⟩ => rfl | ⟨1, _⟩ => rfl)
  have eb : idx_main_v16 (idx_main_v17 (ix2 r c)) = ix1 c :=
    funext fun a => Fin.ext (by match a with | ⟨0, _⟩ => rfl)
  rw [dense_ix2, val_main_v19_apply, val_main_v18_apply, val_main_v15_apply, val_main_v17_apply, val_main_v16_apply,
    val_main_call0_v0_apply, val_main_call0_cst_apply]
  unfold entry
  simp only [el, er, eb, Ideal.addf_def, Ideal.maximumf_def, Ideal.ofBits_def, Ideal.ofBits_zero_f32]

end Cert.ReferenceIdeal.RefDense

end
-- ==== Proof.lean ====
/-
  The kernel computes `relu (x @ W + b)` for the weight matrix `W` obtained by scattering a flat weight vector into a
  fixed sparsity pattern, with the matrix product cut into four runs of the contracted axis and accumulated block by
  block; the reference computes the same expression with one whole product. Over the extended reals both results are

      dense X W B (r, c) = max ( (∑ k < 8192, X r k * W k c) + B c , 0 )

  of the same three arrays: `X` the input matrix, `B` the bias row, and `W` the scattered matrix, which both programs
  build by the same host operations from the same arguments.

    * the kernel side: the result array ends at `dense` of the arrays the pallas_call's windows read
      (Proof/KernelDense.lean, over Proof/Pieces.lean, Proof/Payload.lean and Proof/Blocks.lean), and those arrays are
      the first argument, the scattered matrix and the third argument (Proof/HostSide.lean);
    * the reference side: its result is `dense` of the same (Proof/RefDense.lean);
    * what joins the two arrangements of the sum is associativity and commutativity of addition with unit zero
      (Proof/Spec.lean, Proof/BlockSum.lean); no finiteness of the inputs is used.

  The three frame claims are the generated frame runs; the kernel's idealization rewrote nothing, so `preserves` is
  trivial.
-/
import proofs.«159640_j36919538876542_1_alg».proof.Defs
import proofs.«159640_j36919538876542_1_alg».proof.Proof.Gen.Kernel
import proofs.«159640_j36919538876542_1_alg».proof.Proof.Gen.Kernel.Skeleton
import proofs.«159640_j36919538876542_1_alg».proof.Proof.Gen.Kernel.Launch
import proofs.«159640_j36919538876542_1_alg».proof.Proof.Gen.Kernel.Points
import proofs.«159640_j36919538876542_1_alg».proof.Proof.Gen.Kernel.Frame
import proofs.«159640_j36919538876542_1_alg».proof.Proof.Gen.KernelIdeal
import proofs.«159640_j36919538876542_1_alg».proof.Proof.Gen.KernelIdeal.Skeleton
import proofs.«159640_j36919538876542_1_alg».proof.Proof.Gen.KernelIdeal.Launch
import proofs.«159640_j36919538876542_1_alg».proof.Proof.Gen.KernelIdeal.Points
import proofs.«159640_j36919538876542_1_alg».proof.Proof.Gen.KernelIdeal.Frame
import proofs.«159640_j36919538876542_1_alg».proof.Proof.Gen.ReferenceIdeal
import proofs.«159640_j36919538876542_1_alg».proof.Proof.Gen.Pre_finite_inputs
import proofs.«159640_j36919538876542_1_alg».proof.Proof.Gen.KernelIdeal.Value
import proofs.«159640_j36919538876542_1_alg».proof.Proof.Gen.ReferenceIdeal.Run
import proofs.«159640_j36919538876542_1_alg».proof.Proof.Gen.ReferenceIdeal.Read
import proofs.«159640_j36919538876542_1_alg».proof.Proof.KernelDense
import proofs.«159640_j36919538876542_1_alg».proof.Proof.HostSide
import proofs.«159640_j36919538876542_1_alg».proof.Proof.RefDense
import Idealize.ShloMosaic.Adequacy
import Idealize.ShloMosaic.Init

noncomputable section

namespace Cert.Proof

open Idealize.ShloMosaic Idealize.ShloMosaic.TcCoe Idealize.SL.Sem Idealize.ShloMosaic.ValueIdx
open Cert.Bridge

/-! ## The kernel's result array -/

section KernelSide

open Cert.KernelIdeal Cert.KernelIdeal.Gen

variable (m : (ℓ : Loc nD τ sig) → Buf (Elt Ideal) ℓ) (ρ : Dev nD → PrngReg)

/-- A block of ANY array in the left operand's place, read at an entry, is the array at the entry's position. -/
theorem read_left (c : Dev nD) (A : Buf (Elt Ideal) ((c : Thread nD τ).loc (Pipeline.arrRef spec0 0)))
    (t : Fin cfg0.N) (p : Fin 512) (k : Fin 2048) (r : Fin 2048) (n : Fin 8192)
    (hr : r.val = 512 * (t.val / 16) + p.val) (hn : n.val = 2048 * (t.val % 4) + k.val) :
    (((cfg0.win 0).blk t).view.read (Elt Ideal) A : Vec Ideal S512x2048 .bf16) (ix2 p k) = (A : Lhs) (ix2 r n) := by
  rw [View.read_apply, Blocks.left_pos t p k r n hr hn]
  rfl

/-- The same for the right operand's place. -/
theorem read_right (c : Dev nD) (A : Buf (Elt Ideal) ((c : Thread nD τ).loc (Pipeline.arrRef spec0 1)))
    (t : Fin cfg0.N) (k : Fin 2048) (q : Fin 1024) (n : Fin 8192) (cc : Fin 4096)
    (hn : n.val = 2048 * (t.val % 4) + k.val) (hc : cc.val = 1024 * (t.val / 4 % 4) + q.val) :
    (((cfg0.win 1).blk t).view.read (Elt Ideal) A : Vec Ideal S2048x1024 .bf16) (ix2 k q) = (A : Rhs) (ix2 n cc) := by
  rw [View.read_apply, Blocks.right_pos t k q n cc hn hc]
  rfl

/-- The same for the bias row's place. -/
theorem read_bias (c : Dev nD) (A : Buf (Elt Ideal) ((c : Thread nD τ).loc (Pipeline.arrRef spec0 2)))
    (t : Fin cfg0.N) (q : Fin 1024) (cc : Fin 4096) (hc : cc.val = 1024 * (t.val / 4 % 4) + q.val) :
    (((cfg0.win 2).blk t).view.read (Elt Ideal) A : Vec Ideal S1024 .f32) (ix1 q) = (A : BiasRow) (ix1 cc) := by
  rw [View.read_apply, Blocks.bias_pos t q cc hc]
  rfl

/-- The three input windows read pieces of the arrays the pallas_call finds, at the positions of their index maps. -/
theorem reads_found (c : Dev nD) :
    KernelDense.Reads m c (V m c (Pipeline.arrRef spec0 0)) (V m c (Pipeline.arrRef spec0 1))
      (V m c (Pipeline.arrRef spec0 2)) where
  left t p k r n hr hn := read_left c (V m c (Pipeline.arrRef spec0 0)) t p k r n hr hn
  right t k q n cc hn hc := read_right c (V m c (Pipeline.arrRef spec0 1)) t k q n cc hn hc
  bias t q cc hc := read_bias c (V m c (Pipeline.arrRef spec0 2)) t q cc hc

/-- The function of the arguments both programs compute. -/
abbrev result (c : Dev nD) : Result :=
  dense (m ((c : Thread nD τ).loc main_arg0))
    (Cert.ReferenceIdeal.Read.val_main_v14 (F := Ideal) (m ((c : Thread nD τ).loc main_arg1))
      (m ((c : Thread nD τ).loc main_arg3)) (m ((c : Thread nD τ).loc main_arg4)))
    (m ((c : Thread nD τ).loc main_arg2))

/-- The kernel's result array ends at it. -/
theorem kernel_array (c : Dev nD) : (dats m 0 c).arrAt 3 cfg0.N = result m c := by
  have eX : (V m c (Pipeline.arrRef spec0 0) : Lhs) = m ((c : Thread nD τ).loc main_arg0) := HostSide.left_array m c
  have eW : (V m c (Pipeline.arrRef spec0 1) : Rhs)
      = Cert.ReferenceIdeal.Read.val_main_v14 (F := Ideal) (m ((c : Thread nD τ).loc main_arg1))
          (m ((c : Thread nD τ).loc main_arg3)) (m ((c : Thread nD τ).loc main_arg4)) := HostSide.right_array m c
  have eB : (V m c (Pipeline.arrRef spec0 2) : BiasRow) = m ((c : Thread nD τ).loc main_arg2) := HostSide.bias_array m c
  rw [KernelDense.final m c _ _ _ (reads_found m c), eX, eW, eB]

/-- The kernel's run, with its result array read. -/
theorem kernel_run : θ_run defs (onTc (τ := τ) (main (F := Ideal))) ⟨m, fun _ => 0, ρ⟩ fun r => ∀ c : Dev nD,
      r.2.mem ((c : Thread nD τ).loc main_v17) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (kernel_array m c), (h c).2⟩) (Value.run_blocks m ρ)

end KernelSide

/-! ## The claims -/

theorem frame_kernel : Cert.frame_Kernel := fun m ρ _ => Cert.Kernel.Gen.frame m ρ

theorem frame_kernel_ideal : Cert.frame_KernelIdeal := fun m ρ _ => Cert.KernelIdeal.Gen.frame m ρ

/-- The reference has no pallas_call: its frame is its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the five arguments both programs end with `dense` of the input matrix, the scattered
    matrix and the bias row: the kernel by `kernel_run`, the reference by its generated run read as `dense`. -/
theorem algebraic : Cert.algebraic_KernelIdeal_ReferenceIdeal := by
  intro m ρ m' ρ' _ hagree
  refine ⟨fun c => result m c, kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, Cert.ReferenceIdeal.RefDense.result_is_dense,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
